-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512x512 : Shape := ⟨2, ![512, 512]⟩
abbrev S512 : Shape := ⟨1, ![512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S131072x512 .f32) (main_arg1 : FVec F S512x512 .f32) (main_arg2 : FVec F S512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S131072x512 : Shape := ⟨2, ![131072, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩
abbrev S4096x512 : Shape := ⟨2, ![4096, 512]⟩
abbrev S2048x512 : Shape := ⟨2, ![2048, 512]⟩

abbrev nBuf : Space → Nat
  | .hbm => 45
  | .vmem => 6
  | .smem => 0
  | _ => 0

abbrev bufTy : (tb : Table) → Fin (tcTables nBuf tb) → BufTy
  | .hbm, ⟨0, _⟩ => ⟨S131072x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S512x512, .f32⟩
  | .hbm, ⟨11, _⟩ => ⟨S512x512, .i1⟩
  | .hbm, ⟨12, _⟩ => ⟨S512x512, .i32⟩
  | .hbm, ⟨13, _⟩ => ⟨S_, .i32⟩
  | .hbm, ⟨14, _⟩ => ⟨S512, .i32⟩
  | .hbm, ⟨15, _⟩ => ⟨S512x1, .i32⟩
  | .hbm, ⟨16, _⟩ => ⟨S_, .i32⟩
  | .hbm, ⟨17, _⟩ => ⟨S512x1, .i32⟩
  | .hbm, ⟨18, _⟩ => ⟨S512x1, .i1⟩
  | .hbm, ⟨19, _⟩ => ⟨S_, .i32⟩
  | .hbm, ⟨20, _⟩ => ⟨S_, .i32⟩
  | .hbm, ⟨21, _⟩ => ⟨S512x1, .i32⟩
  | .hbm, ⟨22, _⟩ => ⟨S512x1, .i32⟩
  | .hbm, ⟨23, _⟩ => ⟨S512x1, .f32⟩
  | .hbm, ⟨24, _⟩ => ⟨S_, .f32⟩
  | .hbm, ⟨25, _⟩ => ⟨S_, .f32⟩
  | .hbm, ⟨26, _⟩ => ⟨S512x512, .f32⟩
  | .hbm, ⟨27, _⟩ => ⟨S512x512, .f32⟩
  | .hbm, ⟨28, _⟩ => ⟨S_, .f32⟩
  | .hbm, ⟨29, _⟩ => ⟨S512, .f32⟩
  | .hbm, ⟨30, _⟩ => ⟨S512x1, .f32⟩
  | .hbm, ⟨31, _⟩ => ⟨S512x1, .f32⟩
  | .hbm, ⟨32, _⟩ => ⟨S_, .f32⟩
  | .hbm, ⟨33, _⟩ => ⟨S512x1, .f32⟩
  | .hbm, ⟨34, _⟩ => ⟨S512x1, .f32⟩
  | .hbm, ⟨35, _⟩ => ⟨S512x512, .f32⟩
  | .hbm, ⟨36, _⟩ => ⟨S_, .f32⟩
  | .hbm, ⟨37, _⟩ => ⟨S_, .f32⟩
  | .hbm, ⟨38, _⟩ => ⟨S512x512, .f32⟩
  | .hbm, ⟨39, _⟩ => ⟨S512x512, .f32⟩
  | .hbm, ⟨40, _⟩ => ⟨S512x512, .f32⟩
  | .hbm, ⟨41, _⟩ => ⟨S512x512, .f32⟩
  | .hbm, ⟨42, _⟩ => ⟨S512x512, .bf16⟩
  | .hbm, ⟨43, _⟩ => ⟨S1x512, .f32⟩
  | .hbm, ⟨44, _⟩ => ⟨S131072x512, .f32⟩
  | .local _ .vmem, ⟨0, _⟩ => ⟨S4096x512, .f32⟩
  | .local _ .vmem, ⟨1, _⟩ => ⟨S4096x512, .f32⟩
  | .local _ .vmem, ⟨2, _⟩ => ⟨S512x512, .bf16⟩
  | .local _ .vmem, ⟨3, _⟩ => ⟨S1x512, .f32⟩
  | .local _ .vmem, ⟨4, _⟩ => ⟨S4096x512, .f32⟩
  | .local _ .vmem, ⟨5, _⟩ => ⟨S4096x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_call2_v0 : Ref sig .tc := ⟨.hbm, 37, rfl⟩
abbrev main_call2_v1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c2048_i32 : BitVec 32 := 2048#32
  let v4 : BitVec 32 := Scalar.muli c0_i32 c2048_i32
  v4
def k0_off1 (c0_i32 : BitVec 32) : Fin 2 → Nat :=
  let c2048_i32 : BitVec 32 := 2048#32
  let v4 : BitVec 32 := Scalar.muli c0_i32 c2048_i32
  let v5 : BitVec 32 := v4
  let v6 : Index := Scalar.indexCast v5
  let c0_3 : Index := 0#32
  ![v6.toNat, 0]
def k0_mult2 : BitVec 32 :=
  let c1_i32 : BitVec 32 := 1#32
  let c2048_i32_5 : BitVec 32 := 2048#32
  let v14 : BitVec 32 := Scalar.muli c1_i32 c2048_i32_5
  v14
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  natLt_1_32 : 1 < 32
  bcast_S_S512x512 : S_.BroadcastsInDim S512x512 (![] : Fin 0 → Fin S512x512.rank)
  bitsLt_bf16_f32 : FTy.bits .bf16 < FTy.bits .f32
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  h_S2048x512 : 0 < S2048x512.numel
  broadcasts_S1x512_S2048x512 : S1x512.Broadcasts S2048x512
  dot_S2048x512_S512x512_S2048x512_1_0_0_1_n_n_wf : DotDims.WF S2048x512 S512x512 S2048x512 [1] [0] [0] [1] [] []
  hrank0 : 0 < grid0.rank
  k0_mult1_dvd : 2048 ∣ k0_mult1.toNat
  k0_off1_inb : ∀ (r : Fin 2), ∀ a, (k0_off1 (BitVec.ofNat 32 r.val)) a + S2048x512.size a ≤ S4096x512.size a
  k0_mult2_dvd : 2048 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S131072x512.size a
  hwx0_3 : ∀ i : grid0.Coords, EltTy.bits .f32 = 32 ∨ (Rect.block (s := S131072x512) S4096x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S4096x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x512 : Shape := ⟨2, ![131072, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩

abbrev nBuf : Space → Nat
  | .hbm => 46
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S512x512, .f32⟩
  | .hbm, ⟨11, _⟩ => ⟨S512x512, .i1⟩
  | .hbm, ⟨12, _⟩ => ⟨S512x512, .i32⟩
  | .hbm, ⟨13, _⟩ => ⟨S_, .i32⟩
  | .hbm, ⟨14, _⟩ => ⟨S512, .i32⟩
  | .hbm, ⟨15, _⟩ => ⟨S512x1, .i32⟩
  | .hbm, ⟨16, _⟩ => ⟨S_, .i32⟩
  | .hbm, ⟨17, _⟩ => ⟨S512x1, .i32⟩
  | .hbm, ⟨18, _⟩ => ⟨S512x1, .i1⟩
  | .hbm, ⟨19, _⟩ => ⟨S_, .i32⟩
  | .hbm, ⟨20, _⟩ => ⟨S_, .i32⟩
  | .hbm, ⟨21, _⟩ => ⟨S512x1, .i32⟩
  | .hbm, ⟨22, _⟩ => ⟨S512x1, .i32⟩
  | .hbm, ⟨23, _⟩ => ⟨S512x1, .f32⟩
  | .hbm, ⟨24, _⟩ => ⟨S_, .f32⟩
  | .hbm, ⟨25, _⟩ => ⟨S_, .f32⟩
  | .hbm, ⟨26, _⟩ => ⟨S512x512, .f32⟩
  | .hbm, ⟨27, _⟩ => ⟨S512x512, .f32⟩
  | .hbm, ⟨28, _⟩ => ⟨S_, .f32⟩
  | .hbm, ⟨29, _⟩ => ⟨S512, .f32⟩
  | .hbm, ⟨30, _⟩ => ⟨S512x1, .f32⟩
  | .hbm, ⟨31, _⟩ => ⟨S512x1, .f32⟩
  | .hbm, ⟨32, _⟩ => ⟨S_, .f32⟩
  | .hbm, ⟨33, _⟩ => ⟨S512x1, .f32⟩
  | .hbm, ⟨34, _⟩ => ⟨S512x1, .f32⟩
  | .hbm, ⟨35, _⟩ => ⟨S512x512, .f32⟩
  | .hbm, ⟨36, _⟩ => ⟨S_, .f32⟩
  | .hbm, ⟨37, _⟩ => ⟨S_, .f32⟩
  | .hbm, ⟨38, _⟩ => ⟨S512x512, .f32⟩
  | .hbm, ⟨39, _⟩ => ⟨S512x512, .f32⟩
  | .hbm, ⟨40, _⟩ => ⟨S512x512, .f32⟩
  | .hbm, ⟨41, _⟩ => ⟨S512x512, .f32⟩
  | .hbm, ⟨42, _⟩ => ⟨S131072x512, .f32⟩
  | .hbm, ⟨43, _⟩ => ⟨S1x512, .f32⟩
  | .hbm, ⟨44, _⟩ => ⟨S131072x512, .f32⟩
  | .hbm, ⟨45, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_call2_v0 : Ref sig .tc := ⟨.hbm, 37, rfl⟩
abbrev main_call2_v1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  natLt_1_32 : 1 < 32
  bcast_S_S512x512 : S_.BroadcastsInDim S512x512 (![] : Fin 0 → Fin S512x512.rank)
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  dot_S131072x512_S512x512_S131072x512_1_0_0_1_n_n_wf : DotDims.WF S131072x512 S512x512 S131072x512 [1] [0] [0] [1] [] []

variable [Facts₀]

def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf

class Facts : Prop extends Facts₀ where

variable [Facts]
-- ==== Proof.Spec.lean ====
/-
  The specification: a dense layer with a bias, index by index, over the extended reals.

  For an input `x` of 131072 rows and 512 columns, a weight matrix `tw` of 512 × 512 and a bias `b` of 512
  entries, the result at row `r`, column `c` is

      (∑ k : Fin 512, x (r, k) * tw (k, c)) + b c.

  Both programs compute this function of the same three arrays; how the weight matrix `tw` is obtained from the
  raw weights is the same term on both sides and is never opened. Nothing here needs finiteness: the two sides
  are the same sum of the same products in the same order of factors, so no law of the extended reals beyond
  `0 + s = s` is used anywhere.
-/
import Idealize.ShloMosaic.PureOps.Ideal
import Idealize.ShloMosaic.Lib.ValueIdx

noncomputable section

namespace Cert.DenseSpec

open Idealize.ShloMosaic Idealize.ShloMosaic.ValueIdx

/-- The shapes of the three arrays and of the result, as literals. -/
abbrev Rows : Shape := ⟨2, ![131072, 512]⟩
abbrev Weights : Shape := ⟨2, ![512, 512]⟩
abbrev Bias : Shape := ⟨1, ![512]⟩

/-- The entry at row `r`, column `c`: the inner product of row `r` of `x` with column `c` of `tw`, plus `b c`. -/
def denseAt (x : Rows.Idx → EReal) (tw : Weights.Idx → EReal) (b : Bias.Idx → EReal)
    (r : Fin 131072) (c : Fin 512) : EReal :=
  (∑ k : Fin 512, x (ix2 r k) * tw (ix2 k c)) + b (ix1 c)

/-- The whole result array. -/
def dense (x : Rows.Idx → EReal) (tw : Weights.Idx → EReal) (b : Bias.Idx → EReal) : Rows.Idx → EReal :=
  fun i => denseAt x tw b (i 0) (i 1)

theorem dense_ix2 (x : Rows.Idx → EReal) (tw : Weights.Idx → EReal) (b : Bias.Idx → EReal)
    (r : Fin 131072) (c : Fin 512) : dense x tw b (ix2 r c) = denseAt x tw b r c := rfl

end Cert.DenseSpec

end
-- ==== Proof.RefDense.lean ====
/-
  The reference's result, entry by entry, over the extended reals.

  After it has formed the weight matrix `tw` (a term this module never opens: it is a variable here), the
  reference contracts `x` with `tw` over the shared axis of extent 512, broadcasts the bias `b` first to one row
  and then to every row, and adds. On the extended reals the host contraction is the plain sum of products with no
  accumulator, and each broadcast reads its operand at the column. So at row `r`, column `c` the result is

      (∑ k : Fin 512, x (r, k) * tw (k, c)) + b c,

  which is the specification's entry.
-/
import proofs.«136043_j64639257805186_2_alg».proof.Proof.Gen.ReferenceIdeal
import proofs.«136043_j64639257805186_2_alg».proof.Proof.Spec
import Idealize.ShloMosaic.PureOps.Ideal.Laws
import Idealize.ShloMosaic.Lib.ValueIdx
import Idealize.ShloMosaic.Lib.Pipeline.Value

noncomputable section

namespace Cert.ReferenceIdeal.Dense

open Cert.ReferenceIdeal Cert.ReferenceIdeal.Gen Idealize.ShloMosaic Idealize.ShloMosaic.ValueIdx

variable {F : FTy → Type} [FloatOps F]

/-- The weight matrix both programs form from the raw weights `W` before anything else, as the reference's host
    operations spell it: per row `i`, the threshold `δᵢ = (0.7 / 512) · ∑ⱼ |Wᵢⱼ|`; the mask `|Wᵢⱼ| > δᵢ`; the row's scale
    `αᵢ = max ((∑ⱼ masked |Wᵢⱼ|) / max(countᵢ, 1), 10⁻⁴)`; and the entry `sign(Wᵢⱼ) · αᵢ` where masked, `0 · αᵢ`
    elsewhere. It is one function of `W`, the same term in both programs, and nothing below looks inside it. -/
def ternaryWeights (W : FVec F S512x512 .f32) : FVec F S512x512 .f32 :=
  (mulf (select (cmpf .ogt (Host.absf W)
      (broadcastInDim S512x512 ![0, 1] bcast_S512x1_S512x512_0_1 (mulf (broadcastInDim S512x1 ![] bcast_S_S512x1 (constant S_ .f32 0x3AB33333#32)) (broadcastInDim S512x1 ![0] bcast_S512_S512x1_0
        (Host.reduceAdd (Host.absf W) (constant S_ .f32 0x00000000#32) reducesTo_S512x512_S512_d1 h_S_))))) (Host.sign W) (broadcastInDim S512x512 ![] bcast_S_S512x512 (id (constant S_ .f32 0x00000000#32))))
      (broadcastInDim S512x512 ![0, 1] bcast_S512x1_S512x512_0_1 (maximumf (Host.divf (broadcastInDim S512x1 ![0] bcast_S512_S512x1_0
        (Host.reduceAdd (select (cmpf .ogt (Host.absf W)
      (broadcastInDim S512x512 ![0, 1] bcast_S512x1_S512x512_0_1 (mulf (broadcastInDim S512x1 ![] bcast_S_S512x1 (constant S_ .f32 0x3AB33333#32)) (broadcastInDim S512x1 ![0] bcast_S512_S512x1_0
        (Host.reduceAdd (Host.absf W) (constant S_ .f32 0x00000000#32) reducesTo_S512x512_S512_d1 h_S_))))) (Host.absf W) (broadcastInDim S512x512 ![] bcast_S_S512x512 (id (constant S_ .f32 0x00000000#32)))) (constant S_ .f32 0x00000000#32) reducesTo_S512x512_S512_d1 h_S_))
      (sitofp .f32 (select (cmpi .eq (broadcastInDim S512x1 ![0] bcast_S512_S512x1_0
          (Host.reduce IntOp.addi (extui 32 (cmpf .ogt (Host.absf W)
      (broadcastInDim S512x512 ![0, 1] bcast_S512x1_S512x512_0_1 (mulf (broadcastInDim S512x1 ![] bcast_S_S512x1 (constant S_ .f32 0x3AB33333#32)) (broadcastInDim S512x1 ![0] bcast_S512_S512x1_0
        (Host.reduceAdd (Host.absf W) (constant S_ .f32 0x00000000#32) reducesTo_S512x512_S512_d1 h_S_))))) natLt_1_32) (constantI S_ 32 0#32) reducesTo_S512x512_S512_d1 h_S_)) (broadcastInDim S512x1 ![] bcast_S_S512x1 (constantI S_ 32 0#32))) (broadcastInDim S512x1 ![] bcast_S_S512x1 (id (constantI S_ 32 1#32))) (broadcastInDim S512x1 ![0] bcast_S512_S512x1_0
          (Host.reduce IntOp.addi (extui 32 (cmpf .ogt (Host.absf W)
      (broadcastInDim S512x512 ![0, 1] bcast_S512x1_S512x512_0_1 (mulf (broadcastInDim S512x1 ![] bcast_S_S512x1 (constant S_ .f32 0x3AB33333#32)) (broadcastInDim S512x1 ![0] bcast_S512_S512x1_0
        (Host.reduceAdd (Host.absf W) (constant S_ .f32 0x00000000#32) reducesTo_S512x512_S512_d1 h_S_))))) natLt_1_32) (constantI S_ 32 0#32) reducesTo_S512x512_S512_d1 h_S_))))) (broadcastInDim S512x1 ![] bcast_S_S512x1 (constant S_ .f32 0x38D1B717#32)))))

/-- The dimension numbers of the reference's contraction: rows of `x`, columns of `tw`, one contracted axis of
    extent 512. -/
abbrev fullDot : DotDims S131072x512 S512x512 S131072x512 := dot_S131072x512_S512x512_S131072x512_1_0_0_1_n_n

/-- At output index `j` and contraction index `κ` the left operand is read at (row of `j`, `κ`) … -/
theorem lhs_row (j : S131072x512.Idx) (κ : fullDot.contr.Idx) : (fullDot.lhsIdx j κ 0).val = (j 0).val := by
  unfold DotDims.lhsIdx
  rw [dif_neg (show ¬(0 : Fin S131072x512.rank) ∈ fullDot.lhsBatch by decide),
    dif_pos (show (0 : Fin S131072x512.rank) ∈ fullDot.lhsNonContracting by decide)]
  rfl
theorem lhs_col (j : S131072x512.Idx) (κ : fullDot.contr.Idx) : (fullDot.lhsIdx j κ 1).val = (κ ⟨0, by decide⟩).val :=
  fullDot.lhsIdx_val_of_single rfl j κ
/-- … and the right operand at (`κ`, column of `j`). -/
theorem rhs_row (j : S131072x512.Idx) (κ : fullDot.contr.Idx) : (fullDot.rhsIdx j κ 0).val = (κ ⟨0, by decide⟩).val :=
  fullDot.rhsIdx_val_of_single rfl j κ
theorem rhs_col (j : S131072x512.Idx) (κ : fullDot.contr.Idx) : (fullDot.rhsIdx j κ 1).val = (j 1).val := by
  unfold DotDims.rhsIdx
  rw [dif_neg (show ¬(1 : Fin S512x512.rank) ∈ fullDot.rhsBatch by decide),
    dif_pos (show (1 : Fin S512x512.rank) ∈ fullDot.rhsNonContracting by decide)]
  rfl

/-- The host contraction at row `r`, column `c`: the inner product of row `r` of `x` with column `c` of `tw`. -/
theorem product_at (x : FVec Ideal S131072x512 .f32) (tw : FVec Ideal S512x512 .f32) (r : Fin 131072) (c : Fin 512) :
    Host.dotGeneral fullDot none x tw (ix2 r c) = ∑ k : Fin 512, x (ix2 r k) * tw (ix2 k c) := by
  simp only [Host.dotGeneral]
  rw [Ideal.dotGeneral_apply, ← Equiv.sum_comp (contrEquiv1 fullDot 512 rfl rfl).symm]
  refine Finset.sum_congr rfl fun k _ => ?_
  have hk := contrEquiv1_symm_val fullDot 512 rfl rfl k
  have el : fullDot.lhsIdx (ix2 r c) ((contrEquiv1 fullDot 512 rfl rfl).symm k) = ix2 r k := funext fun ax => Fin.ext (by
    match ax with
    | ⟨0, _⟩ => exact lhs_row _ _
    | ⟨1, _⟩ => exact (lhs_col _ _).trans hk)
  have er : fullDot.rhsIdx (ix2 r c) ((contrEquiv1 fullDot 512 rfl rfl).symm k) = ix2 k c := funext fun ax => Fin.ext (by
    match ax with
    | ⟨0, _⟩ => exact (rhs_row _ _).trans hk
    | ⟨1, _⟩ => exact rhs_col _ _)
  rw [el, er]

/-- The bias broadcast to one row and then to all rows reads, at any row and column `c`, the bias at `c`. -/
theorem bias_at (b : FVec Ideal S512 .f32) (r : Fin 131072) (c : Fin 512) :
    broadcastInDim S131072x512 ![0, 1] bcast_S1x512_S131072x512_0_1
        (broadcastInDim S1x512 ![1] bcast_S512_S1x512_1 b) (ix2 r c) = b (ix1 c) := by
  refine (broadcastInDim_apply _ bcast_S1x512_S131072x512_0_1 _ (ix2 r c) (ix2 (0 : Fin 1) c) (fun ax => match ax with
    | ⟨0, _⟩ => by show 0 = if (1 : Nat) = 1 then 0 else r.val; rw [if_pos rfl]
    | ⟨1, _⟩ => by show c.val = if (512 : Nat) = 1 then 0 else c.val; rw [if_neg (by decide)])).trans ?_
  exact broadcastInDim_apply _ bcast_S512_S1x512_1 b (ix2 (0 : Fin 1) c) (ix1 c) (fun ax => match ax with
    | ⟨0, _⟩ => by show c.val = if (512 : Nat) = 1 then 0 else c.val; rw [if_neg (by decide)])

/-- So the reference's last four operations, of any weight matrix `tw`, compute the specification. -/
theorem result_eq (x : FVec Ideal S131072x512 .f32) (tw : FVec Ideal S512x512 .f32) (b : FVec Ideal S512 .f32) :
    addf (Host.dotGeneral fullDot none x tw)
        (broadcastInDim S131072x512 ![0, 1] bcast_S1x512_S131072x512_0_1 (broadcastInDim S1x512 ![1] bcast_S512_S1x512_1 b))
      = Cert.DenseSpec.dense x tw b := by
  funext i
  obtain ⟨r, c, rfl⟩ : ∃ (r : Fin 131072) (c : Fin 512), i = ix2 r c := ⟨i 0, i 1, eq_ix2 i⟩
  show Host.dotGeneral fullDot none x tw (ix2 r c)
      + broadcastInDim S131072x512 ![0, 1] bcast_S1x512_S131072x512_0_1 (broadcastInDim S1x512 ![1] bcast_S512_S1x512_1 b) (ix2 r c) = _
  rw [product_at, bias_at]
  rfl

end Cert.ReferenceIdeal.Dense

end
-- ==== Proof.HalfBlock.lean ====
/-
  What one store of the kernel body writes, entry by entry, over the extended reals.

  The body handles its 4096-row block of `x` in two halves of 2048 rows. For each half it loads the half `a`, the
  whole 512 × 512 weight block `w` and the 1 × 512 bias row `β`, multiplies `a` by `w` into a zero accumulator and
  adds the bias row to every row of the product. Read at row `p`, column `q` of the half, the stored value is

      (∑ k : Fin 512, a (p, k) * w (k, q)) + β (0, q) :

  the change of float format on the way into the product is the identity on extended reals, the product into
  the zero splat is the plain sum over the one contracted axis (`0 + s = s`), and the broadcast of the bias row
  reads its one row. Both halves are written by the same function of what they load.
-/
import proofs.«136043_j64639257805186_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HalfBlock

open Cert.KernelIdeal Cert.KernelIdeal.Gen Idealize.ShloMosaic Idealize.ShloMosaic.ValueIdx

/-- The dimension numbers of the half-block product: rows of the left operand, columns of the right, one
    contracted axis of extent 512. -/
abbrev halfDot : DotDims S2048x512 S512x512 S2048x512 := dot_S2048x512_S512x512_S2048x512_1_0_0_1_n_n

/-- At output index `j` and contraction index `κ` the left operand is read at (row of `j`, `κ`) … -/
theorem lhs_row (j : S2048x512.Idx) (κ : halfDot.contr.Idx) : (halfDot.lhsIdx j κ 0).val = (j 0).val := by
  unfold DotDims.lhsIdx
  rw [dif_neg (show ¬(0 : Fin S2048x512.rank) ∈ halfDot.lhsBatch by decide),
    dif_pos (show (0 : Fin S2048x512.rank) ∈ halfDot.lhsNonContracting by decide)]
  rfl
theorem lhs_col (j : S2048x512.Idx) (κ : halfDot.contr.Idx) : (halfDot.lhsIdx j κ 1).val = (κ ⟨0, by decide⟩).val :=
  halfDot.lhsIdx_val_of_single rfl j κ
/-- … and the right operand at (`κ`, column of `j`). -/
theorem rhs_row (j : S2048x512.Idx) (κ : halfDot.contr.Idx) : (halfDot.rhsIdx j κ 0).val = (κ ⟨0, by decide⟩).val :=
  halfDot.rhsIdx_val_of_single rfl j κ
theorem rhs_col (j : S2048x512.Idx) (κ : halfDot.contr.Idx) : (halfDot.rhsIdx j κ 1).val = (j 1).val := by
  unfold DotDims.rhsIdx
  rw [dif_neg (show ¬(1 : Fin S512x512.rank) ∈ halfDot.rhsBatch by decide),
    dif_pos (show (1 : Fin S512x512.rank) ∈ halfDot.rhsNonContracting by decide)]
  rfl

/-- The product into the zero accumulator, at row `p` and column `q`: the inner product of row `p` of the left
    operand with column `q` of the right, summed over `Fin 512`. -/
theorem product_at (a : FVec Ideal S2048x512 .bf16) (w : FVec Ideal S512x512 .bf16) (p : Fin 2048) (q : Fin 512) :
    matmul halfDot none a w (constant (F := Ideal) S2048x512 .f32 0x00000000#32) (ix2 p q)
      = ∑ k : Fin 512, a (ix2 p k) * w (ix2 k q) := by
  simp only [matmul]
  rw [Ideal.matmul_constant_zero_apply, ← Equiv.sum_comp (contrEquiv1 halfDot 512 rfl rfl).symm]
  refine Finset.sum_congr rfl fun k _ => ?_
  have hk := contrEquiv1_symm_val halfDot 512 rfl rfl k
  have el : halfDot.lhsIdx (ix2 p q) ((contrEquiv1 halfDot 512 rfl rfl).symm k) = ix2 p k := funext fun ax => Fin.ext (by
    match ax with
    | ⟨0, _⟩ => exact lhs_row _ _
    | ⟨1, _⟩ => exact (lhs_col _ _).trans hk)
  have er : halfDot.rhsIdx (ix2 p q) ((contrEquiv1 halfDot 512 rfl rfl).symm k) = ix2 k q := funext fun ax => Fin.ext (by
    match ax with
    | ⟨0, _⟩ => exact (rhs_row _ _).trans hk
    | ⟨1, _⟩ => exact rhs_col _ _)
  rw [el, er]

/-- The value the body stores for a half, at row `p` and column `q` of the half, from what it loaded: the weight
    block `w`, the bias row `β` and the half `a` of the block of `x`. -/
theorem stored_at (w : Vec Ideal S512x512 .bf16) (β : Vec Ideal S1x512 .f32) (a : Vec Ideal S2048x512 .f32)
    (p : Fin 2048) (q : Fin 512) :
    k0_pay3 (F := Ideal) w β a (ix2 p q) = (∑ k : Fin 512, a (ix2 p k) * w (ix2 k q)) + β (ix2 (0 : Fin 1) q) := by
  show (matmul halfDot none (truncf .bf16 a bitsLt_bf16_f32) (shapeCast S512x512 w shapeCasts_S512x512_S512x512)
        (constant (F := Ideal) S2048x512 .f32 0x00000000#32)) (ix2 p q)
      + (broadcastTo S2048x512 (shapeCast S1x512 β shapeCasts_S1x512_S1x512) broadcasts_S1x512_S2048x512) (ix2 p q) = _
  rw [product_at, broadcastTo_1b_ab_apply, shapeCast_self, shapeCast_self]
  rfl

/-- The second half is stored by the same function of its loads. -/
theorem second_eq_first (w : Vec Ideal S512x512 .bf16) (β : Vec Ideal S1x512 .f32) (a : Vec Ideal S2048x512 .f32) :
    k0_pay4 (F := Ideal) w β a = k0_pay3 (F := Ideal) w β a := rfl

end Cert.KernelIdeal.HalfBlock

end
-- ==== Proof.BlockValue.lean ====
/-
  What the kernel body leaves in its output block, as one function of the three blocks it is given.

  The body is handed a 4096 × 512 block `xb` of `x`, the 512 × 512 weight block `w` and the 1 × 512 bias row `β`,
  and fills its 4096 × 512 output block by two stores: rows 0 … 2047 from rows 0 … 2047 of `xb`, and rows
  2048 … 4095 from rows 2048 … 4095 of `xb`. Each store writes, at row `p` and column `q` of its half,
  `(∑ k, a (p, k) * w (k, q)) + β (0, q)` of the half `a` it loaded, and the half loaded at row offset `o` has
  `a (p, k) = xb (o + p, k)`. So both stores are restrictions of the single function

      blockOut xb w β (y₀, y₁) = (∑ k : Fin 512, xb (y₀, k) * w (k, y₁)) + β (0, y₁)

  of the block index, the two halves cover the block, and the block ends holding `blockOut xb w β`.
-/
import proofs.«136043_j64639257805186_2_alg».proof.Proof.Gen.KernelIdeal.Frame
import proofs.«136043_j64639257805186_2_alg».proof.Proof.HalfBlock
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.BlockValue

open Cert.KernelIdeal Cert.KernelIdeal.Gen Idealize.ShloMosaic.ValueIdx

/-- The entry of the output block at row `p`, column `q`. -/
def blockAt (xb : Vec Ideal S4096x512 .f32) (w : Vec Ideal S512x512 .bf16) (β : Vec Ideal S1x512 .f32)
    (p : Fin 4096) (q : Fin 512) : EReal :=
  (∑ k : Fin 512, xb (ix2 p k) * w (ix2 k q)) + β (ix2 (0 : Fin 1) q)

/-- The output block as one function of its index. -/
def blockOut (xb : Vec Ideal S4096x512 .f32) (w : Vec Ideal S512x512 .bf16) (β : Vec Ideal S1x512 .f32) :
    S4096x512.Idx → EReal :=
  fun y => blockAt xb w β (y 0) (y 1)

theorem zeros2 : (![0, 0] : Fin 2 → Nat) = fun _ => 0 := funext fun a => by fin_cases a <;> rfl

/-- A store of the half loaded at row offset `o` writes the restriction of `blockOut` to rows `o … o + 2047`:
    the half's entry (p, k) is the block's entry (o + p, k), and the half's index (p, q) sits at (o + p, q). -/
theorem half_restricts (o : Nat) (inb : ∀ a, (![o, 0] : Fin 2 → Nat) a + (![2048, 512] : Fin 2 → Nat) a ≤ S4096x512.size a)
    (xb : Vec Ideal S4096x512 .f32) (w : Vec Ideal S512x512 .bf16) (β : Vec Ideal S1x512 .f32) (x : S2048x512.Idx) :
    k0_pay3 (F := Ideal) w β (View.ld xb (Rect.unit (s := S4096x512) ![o, 0] ![2048, 512] inb)) x
      = blockOut xb w β ((Rect.unit (s := S4096x512) ![o, 0] ![2048, 512] inb).emb x) := by
  obtain ⟨p, q, rfl⟩ : ∃ (p : Fin 2048) (q : Fin 512), x = ix2 p q := ⟨x 0, x 1, eq_ix2 x⟩
  have ho : o + 2048 ≤ 4096 := inb 0
  have hrow : o + p.val < 4096 := by have := p.isLt; omega
  have eload : ∀ k : Fin 512, View.ld xb (Rect.unit (s := S4096x512) ![o, 0] ![2048, 512] inb) (ix2 p k)
      = xb (ix2 (⟨o + p.val, hrow⟩ : Fin 4096) k) := fun k =>
    congrArg xb (funext fun a => Fin.ext (by
      match a with
      | ⟨0, _⟩ => show o + 1 * p.val = o + p.val; omega
      | ⟨1, _⟩ => show 0 + 1 * k.val = k.val; omega))
  have eidx : (Rect.unit (s := S4096x512) ![o, 0] ![2048, 512] inb).emb (ix2 p q) = ix2 (⟨o + p.val, hrow⟩ : Fin 4096) q :=
    funext fun a => Fin.ext (by
      match a with
      | ⟨0, _⟩ => show o + 1 * p.val = o + p.val; omega
      | ⟨1, _⟩ => show 0 + 1 * q.val = q.val; omega)
  rw [HalfBlock.stored_at, eidx]
  show _ = blockAt xb w β (⟨o + p.val, hrow⟩ : Fin 4096) q
  unfold blockAt
  exact congrArg (· + β (ix2 (0 : Fin 1) q)) (Finset.sum_congr rfl fun k _ => by rw [eload k])

/-- The body's output block, from the blocks it is given: the two stores' pieces all restrict `blockOut`, and they
    cover the block. -/
theorem out_eq (c : Dev nD) (i : grid0.Coords) (arg1 : Memref sig .tc .vmem S4096x512 .f32) (harg1 : arg1.IsWhole)
    (arg2 : Memref sig .tc .vmem S512x512 .bf16) (harg2 : arg2.IsWhole) (arg3 : Memref sig .tc .vmem S1x512 .f32) (harg3 : arg3.IsWhole)
    (arg4 : Memref sig .tc .vmem S4096x512 .f32) (harg4 : arg4.IsWhole)
    (xb : Vec Ideal S4096x512 .f32) (w : Vec Ideal S512x512 .bf16) (β : Vec Ideal S1x512 .f32) :
    out0_A_3 (F := Ideal) c i arg1 harg1 arg2 harg2 arg3 harg3 arg4 harg4 xb w β = blockOut xb w β := by
  unfold out0_A_3
  rw [View.read_writes_eq_canon _ _ _ (cover0_A_3 c i arg1 harg1 arg2 harg2 arg3 harg3 arg4 harg4 xb w β)]
  funext y
  refine View.canon_apply_of_pieces (blockOut xb w β) _ ?_ y (cover0_A_3 c i arg1 harg1 arg2 harg2 arg3 harg3 arg4 harg4 xb w β y)
  unfold kernelRun0_A
  dsimp only
  sl_unfold_words
  simp only [View.readAt_eq_ld, harg1.read_unread, harg2.read_unread, harg3.read_unread,
    View.ld_unit_zero (S := S512x512) zeros2, View.ld_unit_zero (S := S1x512) zeros2]
  intro pc hpc
  simp only [List.mem_cons, List.not_mem_nil, or_false] at hpc
  rcases hpc with rfl | rfl
  · intro x; exact half_restricts 2048 _ xb w β x
  · intro x; exact half_restricts 0 _ xb w β x

end Cert.KernelIdeal.BlockValue

end
-- ==== Proof.KernelDense.lean ====
/-
  The kernel's result array, as one function of the three arrays the launch finds.

  The launch has a grid of 32 points. At point `t` the pipeline hands the body rows `4096 t … 4096 t + 4095` of
  `x`, the whole weight matrix and the whole bias row (their block index is (0, 0) at every point), and writes the
  body's output block back to rows `4096 t … 4096 t + 4095` of the result. The body's block is
  `(∑ k, xb (y₀, k) * w (k, y₁)) + β (0, y₁)` of the blocks it is given (BlockValue), so what point `t` writes back
  is the restriction to those rows of the single function

      result (r, c) = (∑ k : Fin 512, X (r, k) * W (k, c)) + B (0, c)

  of the arrays `X`, `W`, `B` the launch finds. Row `r` lies in the block of point `r / 4096`, so the 32 blocks cover
  the array, and after the run the result array is `result`.
-/
import proofs.«136043_j64639257805186_2_alg».proof.Proof.Gen.KernelIdeal.Value
import proofs.«136043_j64639257805186_2_alg».proof.Proof.BlockValue
import proofs.«136043_j64639257805186_2_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.Dense

open Cert.KernelIdeal Cert.KernelIdeal.Gen Idealize.ShloMosaic.ValueIdx

variable (m : (ℓ : Loc nD τ sig) → Buf (Elt Ideal) ℓ) (ρ : Dev nD → PrngReg)

/-- The three arrays as the launch finds them: the rows of `x`, the weight matrix, the bias row. -/
def rowsIn (c : Dev nD) : Cert.DenseSpec.Rows.Idx → EReal := fun i => V m c main_arg0 i
def weightsIn (c : Dev nD) : Cert.DenseSpec.Weights.Idx → EReal := fun i => V m c main_v24 i
def biasIn (c : Dev nD) : Cert.DenseSpec.Bias.Idx → EReal := fun j => V m c main_v25 (ix2 (0 : Fin 1) (j 0))

/-- The result array: the specification of those three arrays. -/
def result (c : Dev nD) : S131072x512.Idx → EReal :=
  Cert.DenseSpec.dense (rowsIn m c) (weightsIn m c) (biasIn m c)

/-- The printed index maps over the grid: the blocks of `x` and of the result move down one block per point,
    the weight matrix and the bias row stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The block of `x` at point `t` is rows `4096 t … 4096 t + 4095` of the array. -/
theorem rows_block (c : Dev nD) (t : Fin cfg0.N) (y : S4096x512.Idx) (i : S131072x512.Idx)
    (h0 : (i 0).val = t.val * 4096 + (y 0).val) (h1 : (i 1).val = (y 1).val) :
    (iblk m c 0 t : Vec Ideal S4096x512 .f32) y = V m c main_arg0 i := by
  obtain ⟨e00, e01, -, -, -, -, -, -⟩ := idx_facts t
  unfold iblk
  rw [View.read_apply]
  show V m c main_arg0 _ = V m c main_arg0 _
  congr 1
  funext a
  apply Fin.ext
  match a with
  | ⟨0, _⟩ => show win0_0.index t (0 : Fin 2) * 4096 + 1 * (y 0).val = (i 0).val; rw [e00, h0]; omega
  | ⟨1, _⟩ => show win0_0.index t (1 : Fin 2) * 512 + 1 * (y 1).val = (i 1).val; rw [e01, h1]; omega

/-- The weight block at every point is the whole weight matrix. -/
theorem weights_block (c : Dev nD) (t : Fin cfg0.N) (y : S512x512.Idx) :
    (iblk m c 1 t : Vec Ideal S512x512 .bf16) y = V m c main_v24 y := by
  obtain ⟨-, -, e10, e11, -, -, -, -⟩ := idx_facts t
  unfold iblk
  rw [View.read_apply]
  show V m c main_v24 _ = V m c main_v24 _
  congr 1
  funext a
  apply Fin.ext
  match a with
  | ⟨0, _⟩ => show win0_1.index t (0 : Fin 2) * 512 + 1 * (y 0).val = (y 0).val; rw [e10]; omega
  | ⟨1, _⟩ => show win0_1.index t (1 : Fin 2) * 512 + 1 * (y 1).val = (y 1).val; rw [e11]; omega

/-- The bias block at every point is the whole bias row. -/
theorem bias_block (c : Dev nD) (t : Fin cfg0.N) (y : S1x512.Idx) :
    (iblk m c 2 t : Vec Ideal S1x512 .f32) y = V m c main_v25 y := by
  obtain ⟨-, -, -, -, e20, e21, -, -⟩ := idx_facts t
  unfold iblk
  rw [View.read_apply]
  show V m c main_v25 _ = V m c main_v25 _
  congr 1
  funext a
  apply Fin.ext
  match a with
  | ⟨0, _⟩ => show win0_2.index t (0 : Fin 2) * 1 + 1 * (y 0).val = (y 0).val; rw [e20]; omega
  | ⟨1, _⟩ => show win0_2.index t (1 : Fin 2) * 512 + 1 * (y 1).val = (y 1).val; rw [e21]; omega

/-- The body's block at point `t`, read at row `p` and column `q` of the block, is the result at row
    `4096 t + p`, column `q`. -/
theorem block_entry (c : Dev nD) (t : Fin cfg0.N) (p : Fin 4096) (q : Fin 512) (r : Fin 131072)
    (hr : r.val = t.val * 4096 + p.val) :
    BlockValue.blockOut (iblk m c 0 t) (iblk m c 1 t) (iblk m c 2 t) (ix2 p q) = result m c (ix2 r q) := by
  show BlockValue.blockAt (iblk m c 0 t) (iblk m c 1 t) (iblk m c 2 t) p q
    = Cert.DenseSpec.denseAt (rowsIn m c) (weightsIn m c) (biasIn m c) r q
  unfold BlockValue.blockAt Cert.DenseSpec.denseAt
  have eb : (iblk m c 2 t : Vec Ideal S1x512 .f32) (ix2 (0 : Fin 1) q) = biasIn m c (ix1 q) :=
    bias_block m c t (ix2 (0 : Fin 1) q)
  rw [eb]
  refine congrArg (· + biasIn m c (ix1 q)) (Finset.sum_congr rfl fun k _ => ?_)
  have ex : (iblk m c 0 t : Vec Ideal S4096x512 .f32) (ix2 p k) = rowsIn m c (ix2 r k) :=
    rows_block m c t (ix2 p k) (ix2 r k) hr rfl
  have ew : (iblk m c 1 t : Vec Ideal S512x512 .bf16) (ix2 k q) = weightsIn m c (ix2 k q) :=
    weights_block m c t (ix2 k q)
  rw [ex, ew]

/-- WHAT POINT `t` WRITES BACK is block `t` of `result`. -/
theorem flushed_eq (c : Dev nD) (t : Fin cfg0.N) :
    (dats m 0 c).flushed 3 t = ((cfg0.win 3).blk t).view.read (Elt Ideal) (result m c) := by
  have hout := BlockValue.out_eq c (grid0.coords t) (ms0_0 t) (hs0_0 t) (ms0_1 t) (hs0_1 t) (ms0_2 t) (hs0_2 t)
    (ms0_3 t) (hs0_3 t) (iblk m c 0 t) (iblk m c 1 t) (iblk m c 2 t)
  rw [Value.flushed3_A m c t, hout]
  obtain ⟨-, -, -, -, -, -, e30, e31⟩ := idx_facts t
  have hN : cfg0.N = 32 := N_0
  have ht : t.val < 32 := by have := t.isLt; omega
  funext j
  have hj0 : (j 0).val < 4096 := (j 0).isLt
  have hj1 : (j 1).val < 512 := (j 1).isLt
  have hrow : t.val * 4096 + (j 0).val < 131072 := by omega
  have eblk : (cfg0.win 3).xinj (grid0.coords t) j = ix2 (⟨(j 0).val, hj0⟩ : Fin 4096) (⟨(j 1).val, hj1⟩ : Fin 512) :=
    funext fun a => Fin.ext (by match a with | ⟨0, _⟩ => rfl | ⟨1, _⟩ => rfl)
  have earr : ((cfg0.win 3).blk t).view.emb j
      = ix2 (⟨t.val * 4096 + (j 0).val, hrow⟩ : Fin 131072) (⟨(j 1).val, hj1⟩ : Fin 512) :=
    funext fun a => Fin.ext (by
      match a with
      | ⟨0, _⟩ => show win0_3.index t (0 : Fin 2) * 4096 + 1 * (j 0).val = t.val * 4096 + (j 0).val; rw [e30]; omega
      | ⟨1, _⟩ => show win0_3.index t (1 : Fin 2) * 512 + 1 * (j 1).val = (j 1).val; rw [e31]; omega)
  show BlockValue.blockOut (iblk m c 0 t) (iblk m c 1 t) (iblk m c 2 t) ((cfg0.win 3).xinj (grid0.coords t) j)
    = result m c (((cfg0.win 3).blk t).view.emb j)
  rw [eblk, earr]
  exact block_entry m c t _ _ _ rfl

/-- An index of the array is in point `t`'s block iff each coordinate is in the block's range on its axis. -/
theorem mem_blk (t : Fin cfg0.N) (i : S131072x512.Idx) :
    i ∈ ((cfg0.win 3).blk t).view.set ↔ ∀ a : Fin 2, win0_3.index t a * S4096x512.size a ≤ (i a).val
      ∧ (i a).val < win0_3.index t a * S4096x512.size a + S4096x512.size a := by
  show i ∈ ((View.whole main_v26).slice (win0_3.rect t)).set ↔ _
  rw [View.set_slice_whole, Rect.mem_set_unit]
  exact Iff.rfl

/-- THE ARRAY after the run: row `r` is written by point `r / 4096`, so every index is covered. -/
theorem final (c : Dev nD) : (dats m 0 c).arrAt 3 cfg0.N = result m c :=
  (dats m 0 c).arrAt_eq_of_cover 3 (result m c) (fun t _ => flushed_eq m c t) fun i => by
    have hN : cfg0.N = 32 := N_0
    have hi0 : (i 0).val < 131072 := (i 0).isLt
    have hi1 : (i 1).val < 512 := (i 1).isLt
    have hlt : (i 0).val / 4096 < cfg0.N := by rw [hN]; omega
    refine ⟨⟨(i 0).val / 4096, hlt⟩, flush0_3 _, ?_⟩
    obtain ⟨-, -, -, -, -, -, e30, e31⟩ := idx_facts ⟨(i 0).val / 4096, hlt⟩
    rw [mem_blk]
    intro a
    match a with
    | ⟨0, _⟩ =>
      show win0_3.index ⟨(i 0).val / 4096, hlt⟩ (0 : Fin 2) * 4096 ≤ (i 0).val
        ∧ (i 0).val < win0_3.index ⟨(i 0).val / 4096, hlt⟩ (0 : Fin 2) * 4096 + 4096
      rw [e30]; dsimp only; omega
    | ⟨1, _⟩ =>
      show win0_3.index ⟨(i 0).val / 4096, hlt⟩ (1 : Fin 2) * 512 ≤ (i 1).val
        ∧ (i 1).val < win0_3.index ⟨(i 0).val / 4096, hlt⟩ (1 : Fin 2) * 512 + 512
      rw [e31]; omega

/-- The frame run re-posted: the result array at `result`, the arguments unchanged. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Dense

end
-- ==== Proof.HostSide.lean ====
/-
  What the launch finds in its three operands, as functions of the arguments.

  Before the launch the host forms the weight matrix from the raw weights `W` — the chain of operations the
  reference also runs first, `ternaryWeights W` —, converts it to the narrower float format (the identity on
  extended reals), and reshapes the bias of 512 entries to one row of 512 (the same row-major position: entry
  (0, q) of the row is entry q of the bias). It does not touch `x`. So the launch finds the rows of `x` as
  launched, `ternaryWeights W`, and the bias.
-/
import proofs.«136043_j64639257805186_2_alg».proof.Proof.KernelDense
import proofs.«136043_j64639257805186_2_alg».proof.Proof.RefDense
import Idealize.ShloMosaic.Lib.Pipeline.Value
import Idealize.ShloMosaic.Lib.StableHlo.Run

noncomputable section

open Idealize.ShloMosaic Idealize.ShloMosaic.TcCoe Idealize.SL.Sem Idealize.ShloMosaic.StableHlo

namespace Cert.KernelIdeal.Dense

open Cert.KernelIdeal Cert.KernelIdeal.Gen Idealize.ShloMosaic.ValueIdx

variable (m : (ℓ : Loc nD τ sig) → Buf (Elt Ideal) ℓ)

/-- No host operation before the launch writes `x`. -/
theorem rows_eq (c : Dev nD) : rowsIn m c = (m ((c : Thread nD τ).loc main_arg0) : S131072x512.Idx → EReal) :=
  funext fun i => congrFun (V_main_arg0 m c) i

/-- The bias row the launch finds is the bias, reshaped: entry (0, q) of the row is entry q. -/
theorem bias_eq (c : Dev nD) : biasIn m c = (m ((c : Thread nD τ).loc main_arg2) : S512.Idx → EReal) := by
  have e : (V m c main_v25 : S1x512.Idx → EReal)
      = shapeCast S1x512 (m ((c : Thread nD τ).loc main_arg2)) shapeCasts_S512_S1x512 := by
    dsimp only [Gen.V]
    simp only [hostOps0, hostOps0_1, hostOps0_2, hostOps0_3, hostOps0_4, hostOps0_5, hostOps0_6, List.flatten_cons, List.flatten_nil,
      List.append_nil, List.cons_append, List.nil_append]
    after_results
    rfl
  funext j
  obtain ⟨q, rfl⟩ : ∃ q : Fin 512, j = ix1 q := ⟨j 0, eq_ix1 j⟩
  show (V m c main_v25 : S1x512.Idx → EReal) (ix2 (0 : Fin 1) q) = _
  rw [e]
  refine shapeCast_apply _ _ (ix2 (0 : Fin 1) q) (ix1 q) ?_
  rw [Shape.rowMajor_val_one, Shape.rowMajor_val_two]
  show q.val = 0 * 512 + q.val
  omega

-- the two reductions over a row are folds over its 512 entries: kept folded while the two spellings of the chain are compared
attribute [local irreducible] Host.reduce Host.reduceAdd in
set_option maxHeartbeats 2000000 in
set_option maxRecDepth 8192 in
/-- The weight matrix the launch finds is the chain the reference runs first, of the raw weights: the host
    operations of the two programs up to there are the same, and the change of float format after them is the
    identity on extended reals. -/
theorem weights_eq (c : Dev nD) :
    weightsIn m c = Cert.ReferenceIdeal.Dense.ternaryWeights (F := Ideal) (m ((c : Thread nD τ).loc main_arg1)) := by
  have e : (V m c main_v24 : S512x512.Idx → EReal)
      = Cert.ReferenceIdeal.Dense.ternaryWeights (F := Ideal) (m ((c : Thread nD τ).loc main_arg1)) := by
    dsimp only [Gen.V]
    simp only [hostOps0, hostOps0_1, hostOps0_2, hostOps0_3, hostOps0_4, hostOps0_5, hostOps0_6, List.flatten_cons, List.flatten_nil,
      List.append_nil, List.cons_append, List.nil_append]
    after_results_simp
    rfl
  exact funext fun i => congrFun e i

end Cert.KernelIdeal.Dense

end
-- ==== Proof.lean ====
/-
  The kernel and its reference compute the same dense layer over the extended reals.

  Both programs first form, on the host and by the same operations, a weight matrix `tw = ternaryWeights W` from
  the raw weights `W`. The reference then contracts `x` (131072 × 512) with `tw` and adds the bias `b` to every
  row. The kernel converts `tw` to a narrower float format, reshapes `b` to one row, and launches a grid of 32
  points; point `t` takes rows `4096 t … 4096 t + 4095` of `x` in two halves of 2048 rows, multiplies each half by
  `tw` into a zero accumulator, adds the bias row, and writes the 4096 rows back.

  Over the extended reals a change of float format is the identity, a product into a zero accumulator and the
  host contraction are both the plain sum `∑ k, x (r, k) * tw (k, c)` over the contracted axis, and a broadcast
  reads its operand at the column. So both results are, at every row `r` and column `c`,

      (∑ k : Fin 512, x (r, k) * tw (k, c)) + b c        (Spec: `dense`),

  the same sum of the same products with the factors in the same order — no law of the extended reals beyond
  `0 + s = s` is used, and in particular nothing needs the inputs to be finite. The tiling (32 blocks, two halves
  each) only decides which store writes which rows: every store is a restriction of that one function, and the
  blocks cover the array.

  The pieces: Spec (the function), HalfBlock (one store's value at an index), BlockValue (the body's block from
  its two stores), KernelDense (what each point writes back, the cover, the result array and the run),
  HostSide (what the launch finds in its operands), RefDense (the reference's last four operations at an index),
  ReferenceRun (the reference's run). The ideal pass rewrote nothing, so `preserves` is `True`.
-/
import proofs.«136043_j64639257805186_2_alg».proof.Defs
import proofs.«136043_j64639257805186_2_alg».proof.Proof.Gen.Kernel
import proofs.«136043_j64639257805186_2_alg».proof.Proof.Gen.Kernel.Skeleton
import proofs.«136043_j64639257805186_2_alg».proof.Proof.Gen.Kernel.Launch
import proofs.«136043_j64639257805186_2_alg».proof.Proof.Gen.Kernel.Points
import proofs.«136043_j64639257805186_2_alg».proof.Proof.Gen.Kernel.Frame
import proofs.«136043_j64639257805186_2_alg».proof.Proof.Gen.KernelIdeal
import proofs.«136043_j64639257805186_2_alg».proof.Proof.Gen.KernelIdeal.Skeleton
import proofs.«136043_j64639257805186_2_alg».proof.Proof.Gen.KernelIdeal.Launch
import proofs.«136043_j64639257805186_2_alg».proof.Proof.Gen.KernelIdeal.Points
import proofs.«136043_j64639257805186_2_alg».proof.Proof.Gen.KernelIdeal.Frame
import proofs.«136043_j64639257805186_2_alg».proof.Proof.Gen.ReferenceIdeal
import proofs.«136043_j64639257805186_2_alg».proof.Proof.Gen.Pre_finite_inputs
import proofs.«136043_j64639257805186_2_alg».proof.Proof.Gen.KernelIdeal.Value
import proofs.«136043_j64639257805186_2_alg».proof.Proof.ReferenceRun
import proofs.«136043_j64639257805186_2_alg».proof.Proof.Spec
import proofs.«136043_j64639257805186_2_alg».proof.Proof.RefDense
import proofs.«136043_j64639257805186_2_alg».proof.Proof.KernelDense
import proofs.«136043_j64639257805186_2_alg».proof.Proof.HostSide
import Idealize.ShloMosaic.Adequacy
import Idealize.ShloMosaic.Init

noncomputable section

namespace Cert.Proof

open Idealize.ShloMosaic Idealize.SL.Sem

/-- The three programs run to the end without a fault and leave their arguments as launched. -/
theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.ValueP.run (F := Ideal) m ρ)

/-- The idealized kernel is the kernel's own text read over the extended reals: no operation was rewritten. -/
theorem preserves : Cert.preserves_Kernel_KernelIdeal := trivial

/-- Run from memories that agree on `x`, `W` and `b`, the kernel's result array ends at `dense` of the three arrays
    its launch finds — the rows of `x`, `ternaryWeights W` and `b` — and the reference's result at `dense` of `x`,
    `ternaryWeights W` and `b`: the same array. -/
theorem algebraic : Cert.algebraic_KernelIdeal_ReferenceIdeal := by
  intro m ρ m' ρ' _ hagree
  refine ⟨fun c => Cert.KernelIdeal.Dense.result m c, Cert.KernelIdeal.Dense.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2]
  refine (Cert.ReferenceIdeal.Dense.result_eq _ (Cert.ReferenceIdeal.Dense.ternaryWeights (F := Ideal) _) _).trans ?_
  show Cert.DenseSpec.dense _ _ _
    = Cert.DenseSpec.dense (Cert.KernelIdeal.Dense.rowsIn m c) (Cert.KernelIdeal.Dense.weightsIn m c) (Cert.KernelIdeal.Dense.biasIn m c)
  rw [Cert.KernelIdeal.Dense.rows_eq, Cert.KernelIdeal.Dense.weights_eq, Cert.KernelIdeal.Dense.bias_eq]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
